-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x8192x1024 .f32) (main_arg1 : FVec F S1024x1024 .f32) (main_arg2 : FVec F S1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩
abbrev S65536x1024 : Shape := ⟨2, ![65536, 1024]⟩
abbrev S1x1024 : Shape := ⟨2, ![1, 1024]⟩

abbrev nBuf : Space → Nat
  | .hbm => 29
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S8x8192x1024_S65536x1024 : S8x8192x1024.ShapeCasts S65536x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S8x8192x1024 : S65536x1024.ShapeCasts S8x8192x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S8x8192x1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  dot_S8x8192x1024_S1024x1024_S8x8192x1024_2_1_01_0_n_n_wf : DotDims.WF S8x8192x1024 S1024x1024 S8x8192x1024 [2] [1] [0, 1] [0] [] []

variable [Facts₀]

def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.Spec.lean ====
/-
  A linear layer whose weight matrix is first quantized to three levels, read on the extended reals.

  The weight `w` (1024 output rows by 1024 input columns) is replaced by `quant w`: with `s` the mean of the
  absolute values of all entries of `w`, entry `(o, k)` becomes `clamp (round (w o k / max s ε)) (-1) 1 * s`.
  The layer then maps an input `x` (8 by 8192 rows of 1024 numbers) and a bias `b` to

      out (a, r, o) = (∑ k, x (a, r, k) * quant w (o, k)) + b o.

  `quant` is kept as ONE opaque function of the weight: both programs compute it by the same chain of operations,
  so nothing here ever looks inside it.  What the two programs do differently is only how they USE it: one multiplies
  by `quant w` itself, the other by `w + (quant w - w)`.  On the extended reals `a + (q - a) = q` holds for every
  `q`, infinite or not, as soon as `a` is a real number (`Cert.LibEReal.add_sub_cancel_real`); for an infinite `a` it fails
  (`⊤ + (q - ⊤) = ⊥` for real `q`), which is where the finiteness of the weight is used.
-/
import Idealize.ShloMosaic.PureOps.Ideal
import Idealize.ShloMosaic.Lib.ValueIdx

noncomputable section

namespace Cert.TernaryLinear

open Idealize.ShloMosaic Idealize.ShloMosaic.ValueIdx

/-- The input and the output: 8 batches of 8192 rows of 1024 numbers. -/
abbrev SX : Shape := ⟨3, ![8, 8192, 1024]⟩
/-- The weight: 1024 output rows, 1024 input columns. -/
abbrev SW : Shape := ⟨2, ![1024, 1024]⟩
/-- The bias: one number per output. -/
abbrev SB : Shape := ⟨1, ![1024]⟩
/-- A scalar. -/
abbrev S0 : Shape := ⟨0, ![]⟩

/-- The mean of the absolute values of the weight's entries: their sum (from zero) divided by 2^20 = 1024 · 1024. -/
def meanAbs (hr : SW.ReducesTo [0, 1] S0) (h0 : 0 < S0.numel) (w : FVec Ideal SW .f32) : FVec Ideal S0 .f32 :=
  Host.divf (Host.reduceAdd (Host.absf w) (constant S0 .f32 0x00000000#32) hr h0) (constant S0 .f32 0x49800000#32)

/-- The weight quantized to the three levels `-s, 0, s`, `s` the mean absolute value: each entry divided by
    `max s ε` (ε the float nearest 1e-8), rounded to the nearest integer (ties to even), clamped to `[-1, 1]`, and
    multiplied by `s`. -/
def quant (hr : SW.ReducesTo [0, 1] S0) (h0 : 0 < S0.numel) (hb : S0.BroadcastsInDim SW (![] : Fin 0 → Fin SW.rank))
    (w : FVec Ideal SW .f32) : FVec Ideal SW .f32 :=
  mulf
    (minimumf (broadcastInDim SW ![] hb (id (constant S0 .f32 0x3F800000#32)))
      (maximumf (broadcastInDim SW ![] hb (id (constant S0 .f32 0xBF800000#32)))
        (Host.roundeven (Host.divf w (broadcastInDim SW ![] hb
          (maximumf (meanAbs hr h0 w) (constant S0 .f32 0x322BCC77#32)))))))
    (broadcastInDim SW ![] hb (meanAbs hr h0 w))

/-- One output of the layer with weight `q`: the row `(a, r)` of `x` against the row `o` of `q`, plus the bias at `o`. -/
def linearAt (x : FVec Ideal SX .f32) (q : FVec Ideal SW .f32) (b : FVec Ideal SB .f32)
    (a : Fin 8) (r : Fin 8192) (o : Fin 1024) : EReal :=
  (∑ k : Fin 1024, x (ix3 a r k) * q (ix2 o k)) + b (ix1 o)

/-- The layer's whole output. -/
def linearOut (x : FVec Ideal SX .f32) (q : FVec Ideal SW .f32) (b : FVec Ideal SB .f32) : FVec Ideal SX .f32 :=
  fun i => linearAt x q b (i 0) (i 1) (i 2)

theorem linearOut_ix3 (x : FVec Ideal SX .f32) (q : FVec Ideal SW .f32) (b : FVec Ideal SB .f32)
    (a : Fin 8) (r : Fin 8192) (o : Fin 1024) : linearOut x q b (ix3 a r o) = linearAt x q b a r o := rfl

end Cert.TernaryLinear

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  The precondition makes every entry of the weight a real number.

  The precondition is the conjunction of three tests, one per argument: "every entry has absolute value below +∞".
  On the extended reals the absolute value is `max x (-x)`, which is `⊤` exactly at `x = ⊤` and at `x = ⊥`; so an entry
  that passes the test is neither, that is, it is a real number.  Only the weight's test is read here: it is the one the
  two programs' agreement needs.
-/
import proofs.«161657_j68178310856944_1_alg».proof.Proof.Gen.Pre_finite_inputs
import proofs.«161657_j68178310856944_1_alg».proof.Proof.LibEReal
import Idealize.ShloMosaic.Lib.ReduceAll
import Idealize.ShloMosaic.Lib.ValueIdx
import Idealize.ShloMosaic.PureOps.Ideal

noncomputable section

namespace Cert.Pre_finite_inputs.Finite

open Cert.Pre_finite_inputs Cert.LibEReal Idealize.ShloMosaic Idealize.ShloMosaic.ValueIdx

/-- A scalar has one index. -/
instance : Subsingleton S_.Idx := ⟨fun _ _ => funext fun d => d.elim0⟩

/-- Under the precondition every entry of the weight (the second argument) is a real number: the precondition at
    its one index is a conjunction; its middle conjunct is the weight's test reduced by "and" over all entries, so
    every entry passes it. -/
theorem weight_real (a0 : FVec Ideal S8x8192x1024 .f32) (a1 : FVec Ideal S1024x1024 .f32) (a2 : FVec Ideal S1024 .f32)
    (h : fn (F := Ideal) a0 a1 a2 = fun _ => 1#1) (j : S1024x1024.Idx) : ∃ r : ℝ, a1 j = (r : EReal) := by
  have h0 := congrFun h ix0
  dsimp only [fn] at h0
  have h1 := (IntOp.andi_eq_one.mp h0).1
  have h2 := (IntOp.andi_eq_one.mp h1).2
  have h3 := Host.reduce_andi_all _ _ _ _ _ h2 j
  exact real_of_abs_lt_top _ (lt_top_of_cmp (max (a1 j) (-(a1 j))) h3)

end Cert.Pre_finite_inputs.Finite

end
-- ==== Proof.RefValue.lean ====
/-
  The reference program's result is the quantized linear layer.

  The reference multiplies the input by `w + (quant w - w)` — the quantized weight written as the weight plus a
  correction — contracting the input's last axis against the weight's second, and adds the bias along the last axis.
  With every entry of `w` a real number the correction cancels entry by entry (`add_sub_cancel_real`), so the result
  at `(a, r, o)` is `(∑ k, x (a, r, k) * quant w (o, k)) + b o`.
-/
import proofs.«161657_j68178310856944_1_alg».proof.Proof.Gen.ReferenceIdeal.Read
import proofs.«161657_j68178310856944_1_alg».proof.Proof.Spec
import proofs.«161657_j68178310856944_1_alg».proof.Proof.LibEReal

noncomputable section

namespace Cert.ReferenceIdeal.RefValue

open Cert.ReferenceIdeal Cert.ReferenceIdeal.Read Cert.TernaryLinear Cert.LibEReal Idealize.ShloMosaic Idealize.ShloMosaic.ValueIdx

/-- The quantized weight as the reference computes it is `quant` of the weight: the same operations in the same order. -/
theorem quant_stage (w : FVec Ideal SW .f32) :
    val_main_v9 (F := Ideal) w = quant Gen.reducesTo_S1024x1024_S_d0_1 Gen.h_S_ Gen.bcast_S_S1024x1024 w := rfl

/-- The weight the reference multiplies by, `w + (quant w - w)`, is `quant w` when every entry of `w` is real. -/
theorem weight_stage (w : FVec Ideal SW .f32) (hw : ∀ j, ∃ r : ℝ, w j = (r : EReal)) :
    val_main_v11 (F := Ideal) w = quant Gen.reducesTo_S1024x1024_S_d0_1 Gen.h_S_ Gen.bcast_S_S1024x1024 w := by
  funext j
  rw [val_main_v11_apply, val_main_v10_apply, quant_stage]
  obtain ⟨r, hr⟩ := hw j
  show w j + (_ - w j) = _
  rw [hr]
  exact add_sub_cancel_real r _

/-- The reference's result, index by index. -/
theorem result_eq (x : FVec Ideal SX .f32) (w : FVec Ideal SW .f32) (b : FVec Ideal SB .f32)
    (hw : ∀ j, ∃ r : ℝ, w j = (r : EReal)) :
    val_main_v15 (F := Ideal) x w b
      = linearOut x (quant Gen.reducesTo_S1024x1024_S_d0_1 Gen.h_S_ Gen.bcast_S_S1024x1024 w) b := by
  funext i
  obtain ⟨a, r, o, rfl⟩ : ∃ (a : Fin 8) (r : Fin 8192) (o : Fin 1024), i = ix3 a r o := ⟨i 0, i 1, i 2, eq_ix3 i⟩
  have hl : ∀ k : Fin 1024, lidx_main_v12 (ix3 a r o) k = ix3 a r k := fun k =>
    funext fun d => Fin.ext (by match d with | ⟨0, _⟩ => rfl | ⟨1, _⟩ => rfl | ⟨2, _⟩ => rfl)
  have hr : ∀ k : Fin 1024, ridx_main_v12 (ix3 a r o) k = ix2 o k := fun k =>
    funext fun d => Fin.ext (by match d with | ⟨0, _⟩ => rfl | ⟨1, _⟩ => rfl)
  have hb : idx_main_v13 (idx_main_v14 (ix3 a r o)) = ix1 o :=
    funext fun d => Fin.ext (by match d with | ⟨0, _⟩ => rfl)
  rw [linearOut_ix3, val_main_v15_apply, val_main_v12_apply, val_main_v14_apply, val_main_v13_apply, hb,
    weight_stage w hw]
  unfold linearAt
  show (∑ k : Fin 1024, _) + b (ix1 o) = _
  refine congrArg (· + b (ix1 o)) (Finset.sum_congr rfl fun k _ => ?_)
  rw [hl, hr]

end Cert.ReferenceIdeal.RefValue

end
-- ==== Proof.HostEntry.lean ====
/-
  What the three arrays the kernel reads hold when its region is entered.

  Before the region the program computes, from the arguments `x`, `w`, `b`:
    • the input flattened to 65536 rows: row `a * 8192 + r` of the flattened array is row `(a, r)` of `x`;
    • the quantized weight `quant w`, transposed (so that it is indexed input first, output second) and then
      rounded to bf16, which changes nothing on the extended reals;
    • the bias as a matrix of one row.
  Each is read here first as a whole array — the chain of operations that produced it — and then at an index.
-/
import proofs.«161657_j68178310856944_1_alg».proof.Proof.Gen.KernelIdeal.Frame
import proofs.«161657_j68178310856944_1_alg».proof.Proof.Spec
import Idealize.ShloMosaic.Lib.StableHlo.Run
import Idealize.ShloMosaic.Lib.ValueLayout
import Idealize.ShloMosaic.Lib.Pipeline.Value

noncomputable section

namespace Cert.KernelIdeal.Entry

open Cert.KernelIdeal Cert.KernelIdeal.Gen Cert.TernaryLinear
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The quantized weight of core `c`'s weight argument. -/
abbrev qw (c : Dev nD) : FVec Ideal SW .f32 :=
  quant reducesTo_S1024x1024_S_d0_1 h_S_ bcast_S_S1024x1024 (m ((c : Thread nD τ).loc main_arg1))

/-- The flattened input is the input argument cast to 65536 × 1024. -/
theorem x_entry (c : Dev nD) :
    (V m c main_v12 : S65536x1024.Idx → Elt Ideal .f32)
      = shapeCast S65536x1024 (m ((c : Thread nD τ).loc main_arg0) : S8x8192x1024.Idx → Elt Ideal .f32)
          shapeCasts_S8x8192x1024_S65536x1024 := by
  dsimp only [V, V0]
  simp only [hostOps0, hostOps0_1, hostOps0_2, hostOps0_3, hostOps0_4, List.flatten_cons, List.flatten_nil, List.append_nil, List.cons_append, List.nil_append]
  after_results
  rfl

/-- The one-row bias is the bias argument cast to 1 × 1024. -/
theorem b_entry (c : Dev nD) :
    (V m c main_v13 : S1x1024.Idx → Elt Ideal .f32)
      = shapeCast S1x1024 (m ((c : Thread nD τ).loc main_arg2) : S1024.Idx → Elt Ideal .f32)
          shapeCasts_S1024_S1x1024 := by
  dsimp only [V, V0]
  simp only [hostOps0, hostOps0_1, hostOps0_2, hostOps0_3, hostOps0_4, List.flatten_cons, List.flatten_nil, List.append_nil, List.cons_append, List.nil_append]
  after_results
  rfl

set_option maxHeartbeats 2000000 in
/-- The weight the kernel multiplies by is the quantized weight, transposed, then rounded to bf16. -/
theorem w_entry (c : Dev nD) :
    (V m c main_v11 : S1024x1024.Idx → Elt Ideal .bf16)
      = truncf .bf16 (transpose S1024x1024 [1, 0] (qw m c) transposes_S1024x1024_S1024x1024_1_0) bitsLt_bf16_f32 := by
  dsimp only [V, V0]
  simp only [hostOps0, hostOps0_1, hostOps0_2, hostOps0_3, hostOps0_4, List.flatten_cons, List.flatten_nil, List.append_nil, List.cons_append, List.nil_append]
  after_results
  rfl

/-- Row `a * 8192 + r` of the flattened input is row `(a, r)` of the input. -/
theorem x_entry_at (c : Dev nD) (a : Fin 8) (r : Fin 8192) (k : Fin 1024) (R : Fin 65536)
    (hR : R.val = a.val * 8192 + r.val) :
    (V m c main_v12 : S65536x1024.Idx → Elt Ideal .f32) (ix2 R k)
      = (m ((c : Thread nD τ).loc main_arg0) : S8x8192x1024.Idx → Elt Ideal .f32) (ix3 a r k) := by
  rw [x_entry]
  refine shapeCast_apply _ _ (ix2 R k) (ix3 a r k) ?_
  rw [Shape.rowMajor_val_three, Shape.rowMajor_val_two]
  show (a.val * 8192 + r.val) * 1024 + k.val = R.val * 1024 + k.val
  rw [hR]

/-- Entry `(k, o)` of the kernel's weight is entry `(o, k)` of the quantized weight. -/
theorem w_entry_at (c : Dev nD) (k o : Fin 1024) :
    (V m c main_v11 : S1024x1024.Idx → Elt Ideal .bf16) (ix2 k o) = qw m c (ix2 o k) := by
  rw [w_entry, truncf_apply]
  exact transpose_ix2_apply _ _ k o

/-- Entry `(0, o)` of the one-row bias is entry `o` of the bias. -/
theorem b_entry_at (c : Dev nD) (o : Fin 1024) :
    (V m c main_v13 : S1x1024.Idx → Elt Ideal .f32) (ix2 (0 : Fin 1) o)
      = (m ((c : Thread nD τ).loc main_arg2) : S1024.Idx → Elt Ideal .f32) (ix1 o) := by
  rw [b_entry]
  exact shapeCast_a_1a_apply _ _ (0 : Fin 1) o

end Cert.KernelIdeal.Entry

end
-- ==== Proof.Payload.lean ====
/-
  What one grid step of the kernel stores, read at an index.

  A step loads a block `x0` of 1024 rows of the input, the whole transposed weight `x1` (input index first, output
  index second) and the bias as one row `x2`, and stores ONE 1024 × 1024 block: the matrix product of `x0` and `x1`
  accumulated into zero, plus the bias row repeated down the rows.  The casts of the block to its own shape are
  identities and the rounding of `x0` to bf16 is the identity on the extended reals, so at row `p`, column `q`
  the stored block holds

      (∑ k, x0 (p, k) * x1 (k, q)) + x2 (0, q).
-/
import proofs.«161657_j68178310856944_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! The product contracts the left operand's second axis against the right operand's first: at output `j` and
contraction index `c` the left operand is read at `(j 0, c)` and the right at `(c, j 1)`. -/

theorem lhs_row (j : S1024x1024.Idx) (c : dot_S1024x1024_S1024x1024_S1024x1024_1_0_0_1_n_n.contr.Idx) :
    (dot_S1024x1024_S1024x1024_S1024x1024_1_0_0_1_n_n.lhsIdx j c 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_col (j : S1024x1024.Idx) (c : dot_S1024x1024_S1024x1024_S1024x1024_1_0_0_1_n_n.contr.Idx) :
    (dot_S1024x1024_S1024x1024_S1024x1024_1_0_0_1_n_n.lhsIdx j c 1).val = (c ⟨0, by decide⟩).val :=
  dot_S1024x1024_S1024x1024_S1024x1024_1_0_0_1_n_n.lhsIdx_val_of_single rfl j c
theorem rhs_row (j : S1024x1024.Idx) (c : dot_S1024x1024_S1024x1024_S1024x1024_1_0_0_1_n_n.contr.Idx) :
    (dot_S1024x1024_S1024x1024_S1024x1024_1_0_0_1_n_n.rhsIdx j c 0).val = (c ⟨0, by decide⟩).val :=
  dot_S1024x1024_S1024x1024_S1024x1024_1_0_0_1_n_n.rhsIdx_val_of_single rfl j c
theorem rhs_col (j : S1024x1024.Idx) (c : dot_S1024x1024_S1024x1024_S1024x1024_1_0_0_1_n_n.contr.Idx) :
    (dot_S1024x1024_S1024x1024_S1024x1024_1_0_0_1_n_n.rhsIdx j c 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product accumulated into zero, at `(p, q)`: the sum over `k` of left `(p, k)` times right `(k, q)`. -/
theorem matmul_at (l r : FVec Ideal S1024x1024 .bf16) (p q : Fin 1024) :
    matmul (F := Ideal) dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- The stored block at row `p`, column `q`. -/
theorem stored_at (x0 : Vec Ideal S1024x1024 .f32) (x1 : Vec Ideal S1024x1024 .bf16) (x2 : Vec Ideal S1x1024 .f32)
    (p q : Fin 1024) :
    k0_pay1 (F := Ideal) x0 x1 x2 (ix2 p q)
      = (∑ k : Fin 1024, x0 (ix2 p k) * x1 (ix2 k q)) + x2 (ix2 (0 : Fin 1) q) := by
  unfold k0_pay1
  simp only [shapeCast_self]
  rw [addf_apply, matmul_at, broadcastTo_1b_ab_apply]
  rfl

end Cert.KernelIdeal.Body

end
-- ==== Proof.KernelValue.lean ====
/-
  The array the kernel's region leaves, as one function of the three arrays the region reads.

  The region has 64 steps.  Step `t` reads rows `1024 t … 1024 t + 1023` of the flattened input `X`, the whole
  transposed weight `Wt` and the one-row bias `Bv`, and writes rows `1024 t … 1024 t + 1023` of the result.  Since
  what it writes at local row `p`, column `q` is `(∑ k, x0 (p, k) * Wt (k, q)) + Bv (0, q)` with `x0 (p, k)` entry
  `(1024 t + p, k)` of `X`, every step writes its block of the SAME whole-array function

      regionOut X Wt Bv (R, q) = (∑ k, X (R, k) * Wt (k, q)) + Bv (0, q),

  and the 64 blocks cover the 65536 rows (row `R` lies in the block of step `R / 1024`): the array ends at `regionOut`.
-/
import proofs.«161657_j68178310856944_1_alg».proof.Proof.Gen.KernelIdeal.Frame
import proofs.«161657_j68178310856944_1_alg».proof.Proof.Payload
import Idealize.ShloMosaic.Lib.Pipeline.Value

noncomputable section

namespace Cert.KernelIdeal.Region

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The region's result as one function of the arrays it reads: row `R` of `X` against column `q` of `Wt`, plus the
    bias row at `q`. -/
def regionOut (X : S65536x1024.Idx → Elt Ideal .f32) (Wt : S1024x1024.Idx → Elt Ideal .bf16)
    (Bv : S1x1024.Idx → Elt Ideal .f32) : S65536x1024.Idx → Elt Ideal .f32 :=
  fun j => (∑ k : Fin 1024, X (ix2 (j 0) k) * Wt (ix2 k (j 1))) + Bv (ix2 (0 : Fin 1) (j 1))

theorem regionOut_ix2 (X : S65536x1024.Idx → Elt Ideal .f32) (Wt : S1024x1024.Idx → Elt Ideal .bf16)
    (Bv : S1x1024.Idx → Elt Ideal .f32) (R : Fin 65536) (q : Fin 1024) :
    regionOut X Wt Bv (ix2 R q) = (∑ k : Fin 1024, X (ix2 R k) * Wt (ix2 k q)) + Bv (ix2 (0 : Fin 1) q) := rfl

theorem hz : (![0, 0] : Fin 2 → Nat) = fun _ => 0 := funext fun a => by fin_cases a <;> rfl

/-- Where the four windows' blocks sit at step `t`: the input's and the result's at block row `t`, the weight's and
    the bias's at the origin (decided over the 64 steps). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Step `t`'s input block at `(p, k)` is the flattened input at row `1024 t + p`. -/
theorem in_block (c : Dev nD) (t : Fin cfg0.N) (p k : Fin 1024) (R : Fin 65536) (hR : R.val = t.val * 1024 + p.val) :
    (iblk m c 0 t : Vec Ideal S1024x1024 .f32) (ix2 p k)
      = (V m c main_v12 : S65536x1024.Idx → Elt Ideal .f32) (ix2 R k) := by
  obtain ⟨e0, e1, -⟩ := idx_facts t
  unfold iblk
  rw [View.read_apply]
  show V m c main_v12 _ = V m c main_v12 _
  refine congrArg (V m c main_v12) (funext fun a => Fin.ext ?_)
  match a with
  | ⟨0, _⟩ => show win0_0.index t (0 : Fin 2) * 1024 + 1 * p.val = R.val; rw [e0, hR]; omega
  | ⟨1, _⟩ => show win0_0.index t (1 : Fin 2) * 1024 + 1 * k.val = k.val; rw [e1]; omega

/-- Every step's weight block is the whole transposed weight. -/
theorem w_block (c : Dev nD) (t : Fin cfg0.N) (k q : Fin 1024) :
    (iblk m c 1 t : Vec Ideal S1024x1024 .bf16) (ix2 k q)
      = (V m c main_v11 : S1024x1024.Idx → Elt Ideal .bf16) (ix2 k q) := by
  obtain ⟨-, -, e2, e3, -⟩ := idx_facts t
  unfold iblk
  rw [View.read_apply]
  show V m c main_v11 _ = V m c main_v11 _
  refine congrArg (V m c main_v11) (funext fun a => Fin.ext ?_)
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- Every step's bias block is the whole bias row. -/
theorem b_block (c : Dev nD) (t : Fin cfg0.N) (q : Fin 1024) :
    (iblk m c 2 t : Vec Ideal S1x1024 .f32) (ix2 (0 : Fin 1) q)
      = (V m c main_v13 : S1x1024.Idx → Elt Ideal .f32) (ix2 (0 : Fin 1) q) := by
  obtain ⟨-, -, -, -, e4, e5, -⟩ := idx_facts t
  unfold iblk
  rw [View.read_apply]
  show V m c main_v13 _ = V m c main_v13 _
  refine congrArg (V m c main_v13) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = q.val; rw [e5]; omega

/-- What a step stores, from blocks that are the arrays read where the step's rows say: its block of `regionOut`. -/
theorem stored_eq (X : S65536x1024.Idx → Elt Ideal .f32) (Wt : S1024x1024.Idx → Elt Ideal .bf16)
    (Bv : S1x1024.Idx → Elt Ideal .f32)
    (x0 : Vec Ideal S1024x1024 .f32) (x1 : Vec Ideal S1024x1024 .bf16) (x2 : Vec Ideal S1x1024 .f32)
    (p q : Fin 1024) (R : Fin 65536)
    (h0 : ∀ k : Fin 1024, x0 (ix2 p k) = X (ix2 R k))
    (h1 : ∀ k : Fin 1024, x1 (ix2 k q) = Wt (ix2 k q))
    (h2 : x2 (ix2 (0 : Fin 1) q) = Bv (ix2 (0 : Fin 1) q)) :
    k0_pay1 (F := Ideal) x0 x1 x2 (ix2 p q) = regionOut X Wt Bv (ix2 R q) := by
  rw [stored_at, regionOut_ix2, h2]
  exact congrArg (· + Bv (ix2 (0 : Fin 1) q)) (Finset.sum_congr rfl fun k _ => by rw [h0 k, h1 k])

/-- Local row `p`, column `q` of step `t`'s result block is row `1024 t + p`, column `q` of the result array. -/
theorem out_emb (t : Fin cfg0.N) (p q : Fin 1024) (R : Fin 65536) (hR : R.val = t.val * 1024 + p.val) :
    ((cfg0.win 3).blk t).view.emb (ix2 p q) = (ix2 R q : S65536x1024.Idx) := by
  obtain ⟨-, -, -, -, -, -, e6, e7⟩ := idx_facts t
  refine funext fun a => Fin.ext ?_
  match a with
  | ⟨0, _⟩ => show win0_3.index t (0 : Fin 2) * 1024 + 1 * p.val = R.val; rw [e6, hR]; omega
  | ⟨1, _⟩ => show win0_3.index t (1 : Fin 2) * 1024 + 1 * q.val = q.val; rw [e7]; omega

/-- WHAT STEP `t` WRITES BACK is block `t` of `regionOut` of the arrays as the region finds them. -/
theorem flushed_eq (c : Dev nD) (t : Fin cfg0.N) :
    (dats m 0 c).flushed 3 t
      = ((cfg0.win 3).blk t).view.read (Elt Ideal) (regionOut (V m c main_v12) (V m c main_v11) (V m c main_v13)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  refine funext fun (y : S1024x1024.Idx) => ?_
  obtain ⟨p, q, rfl⟩ : ∃ (p q : Fin 1024), y = ix2 p q := ⟨y 0, y 1, eq_ix2 y⟩
  have hN : cfg0.N = 64 := N_0
  have ht : t.val < 64 := hN ▸ t.isLt
  have hp : p.val < 1024 := p.isLt
  let R : Fin 65536 := ⟨t.val * 1024 + p.val, by omega⟩
  show k0_pay1 (F := Ideal) (iblk m c 0 t) (iblk m c 1 t) (iblk m c 2 t) (ix2 p q)
    = regionOut (V m c main_v12) (V m c main_v11) (V m c main_v13) (((cfg0.win 3).blk t).view.emb (ix2 p q))
  rw [out_emb t p q R rfl]
  exact stored_eq (V m c main_v12) (V m c main_v11) (V m c main_v13) (iblk m c 0 t) (iblk m c 1 t) (iblk m c 2 t) p q R
    (fun k => in_block m c t p k R rfl) (fun k => w_block m c t k q) (b_block m c t q)

/-- An index of the result array is in step `t`'s block iff each coordinate is in the block's range on its axis. -/
theorem mem_blk (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v14).slice (win0_3.rect t)).set ↔ _
  rw [View.set_slice_whole, Rect.mem_set_unit]
  exact Iff.rfl

/-- Every row of the result is in some step's block: row `R` in the block of step `R / 1024`. -/
theorem cover (i : S65536x1024.Idx) :
    ∃ t : Fin cfg0.N, (cfg0.win 3).flush t = true ∧ i ∈ ((cfg0.win 3).blk t).view.set := by
  have hN : cfg0.N = 64 := N_0
  have hi0 : (i 0).val < 65536 := (i 0).isLt
  have hi1 : (i 1).val < 1024 := (i 1).isLt
  let t : Fin cfg0.N := ⟨(i 0).val / 1024, by rw [hN]; omega⟩
  obtain ⟨-, -, -, -, -, -, e6, e7⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

/-- THE ARRAY after the region: `regionOut` of the arrays the region found. -/
theorem final (c : Dev nD) :
    (dats m 0 c).arrAt 3 cfg0.N = regionOut (V m c main_v12) (V m c main_v11) (V m c main_v13) :=
  (dats m 0 c).arrAt_eq_of_cover 3 _ (fun t _ => flushed_eq m c t) cover

end Cert.KernelIdeal.Region

end
-- ==== Proof.KernelRun.lean ====
/-
  The kernel program's whole run: its result is the quantized linear layer of its arguments.

  After the region the program only reshapes the 65536 × 1024 result back to 8 × 8192 × 1024: entry `(a, r, o)` of
  the program's result is entry `(a * 8192 + r, o)` of the region's array.  That array is `regionOut` of the flattened
  input, the transposed quantized weight and the one-row bias; read back through the three layouts, entry
  `(a * 8192 + r, o)` is `(∑ k, x (a, r, k) * quant w (o, k)) + b o`.
-/
import proofs.«161657_j68178310856944_1_alg».proof.Proof.Gen.KernelIdeal.Frame
import proofs.«161657_j68178310856944_1_alg».proof.Proof.Spec
import proofs.«161657_j68178310856944_1_alg».proof.Proof.HostEntry
import proofs.«161657_j68178310856944_1_alg».proof.Proof.KernelValue
import Idealize.ShloMosaic.Lib.StableHlo.Run
import Idealize.ShloMosaic.Lib.Pipeline.Value

noncomputable section

namespace Cert.KernelIdeal.Whole

open Cert.KernelIdeal Cert.KernelIdeal.Gen Cert.KernelIdeal.Entry Cert.KernelIdeal.Region Cert.TernaryLinear
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The region's array at row `a * 8192 + r`, column `o`, in terms of the arguments. -/
theorem region_at (c : Dev nD) (a : Fin 8) (r : Fin 8192) (o : Fin 1024) (R : Fin 65536)
    (hR : R.val = a.val * 8192 + r.val) :
    regionOut (V m c main_v12) (V m c main_v11) (V m c main_v13) (ix2 R o)
      = linearAt (m ((c : Thread nD τ).loc main_arg0)) (qw m c) (m ((c : Thread nD τ).loc main_arg2)) a r o := by
  rw [regionOut_ix2, b_entry_at]
  unfold linearAt
  refine congrArg (· + _) (Finset.sum_congr rfl fun k _ => ?_)
  rw [x_entry_at m c a r k R hR, w_entry_at]

/-- The program's result buffer after the lines that follow the region: the region's array reshaped. -/
theorem tail_eq (c : Dev nD) :
    Pipeline.afterTail₀ cfgs (dats m) 0 (V0 m) [hostOps1] c main_v15
      = shapeCast S8x8192x1024 (regionOut (V m c main_v12) (V m c main_v11) (V m c main_v13))
          shapeCasts_S65536x1024_S8x8192x1024 := by
  have e : Pipeline.withArrays spec0 c (V0 m c) (fun w => (dats m 0 c).arrAt w cfg0.N) (Proc.devRef .tc main_v14)
      = regionOut (V m c main_v12) (V m c main_v11) (V m c main_v13) :=
    (Pipeline.withArrays_arr spec0 launch0.win.arr_inj c _ _ 3).trans (final m c)
  unfold Pipeline.afterTail₀
  show StableHlo.after hostOps1 _ (Proc.devRef .tc main_v15) = _
  after_results
  rw [e]
  rfl

/-- The program's result is the layer's output. -/
theorem result_eq (c : Dev nD) :
    Pipeline.afterTail₀ cfgs (dats m) 0 (V0 m) [hostOps1] c main_v15
      = linearOut (m ((c : Thread nD τ).loc main_arg0)) (qw m c) (m ((c : Thread nD τ).loc main_arg2)) := by
  rw [tail_eq]
  funext i
  obtain ⟨a, r, o, rfl⟩ : ∃ (a : Fin 8) (r : Fin 8192) (o : Fin 1024), i = ix3 a r o := ⟨i 0, i 1, i 2, eq_ix3 i⟩
  have ha : a.val < 8 := a.isLt
  have hr : r.val < 8192 := r.isLt
  let R : Fin 65536 := ⟨a.val * 8192 + r.val, by omega⟩
  rw [linearOut_ix3]
  refine (shapeCast_apply _ _ (ix3 a r o) (ix2 R o) ?_).trans (region_at m c a r o R rfl)
  rw [Shape.rowMajor_val_three, Shape.rowMajor_val_two]
  rfl

/-- Every weakly fair execution of the kernel program terminates with its result at the layer's output of its
    arguments, and its arguments unchanged. -/
theorem run : θ_run defs (onTc (τ := τ) (main (F := Ideal))) ⟨m, fun _ => 0, ρ⟩ fun r => ∀ c : Dev nD,
      r.2.mem ((c : Thread nD τ).loc main_v15)
        = linearOut (m ((c : Thread nD τ).loc main_arg0)) (qw m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  A linear layer with a weight quantized to three levels: a tiled kernel against its one-line reference.

  Both programs first quantize the weight `w` by the same operations (`Cert.TernaryLinear.quant`: scale by the mean
  absolute value, round, clamp to [-1, 1], scale back).  The kernel then flattens the input to 65536 rows, transposes
  the quantized weight, and in 64 steps multiplies 1024 rows at a time and adds the bias; the reference contracts the
  input against `w + (quant w - w)` in one product and adds the bias.  On the extended reals, format changes are
  identities and both are

      out (a, r, o) = (∑ k, x (a, r, k) * quant w (o, k)) + b o,

  the reference's because `w + (quant w - w) = quant w` entry by entry once every entry of `w` is a real number —
  which the precondition gives.  No other law is used: the two sums run over the same index in the same order.

  The frames of the two kernel programs are the generated ones; the reference's is its run with the result dropped;
  nothing was rewritten when the kernel was idealized, so there is nothing to preserve.
-/
import proofs.«161657_j68178310856944_1_alg».proof.Defs
import proofs.«161657_j68178310856944_1_alg».proof.Proof.Gen.Kernel
import proofs.«161657_j68178310856944_1_alg».proof.Proof.Gen.Kernel.Frame
import proofs.«161657_j68178310856944_1_alg».proof.Proof.Gen.KernelIdeal
import proofs.«161657_j68178310856944_1_alg».proof.Proof.Gen.KernelIdeal.Frame
import proofs.«161657_j68178310856944_1_alg».proof.Proof.Gen.ReferenceIdeal
import proofs.«161657_j68178310856944_1_alg».proof.Proof.Gen.ReferenceIdeal.Run
import proofs.«161657_j68178310856944_1_alg».proof.Proof.Gen.ReferenceIdeal.Read
import proofs.«161657_j68178310856944_1_alg».proof.Proof.Gen.Pre_finite_inputs
import proofs.«161657_j68178310856944_1_alg».proof.Proof.Spec
import proofs.«161657_j68178310856944_1_alg».proof.Proof.Finite
import proofs.«161657_j68178310856944_1_alg».proof.Proof.RefValue
import proofs.«161657_j68178310856944_1_alg».proof.Proof.KernelRun
import Idealize.ShloMosaic.Adequacy
import Idealize.ShloMosaic.Init

noncomputable section

namespace Cert.Proof

open Idealize.ShloMosaic Idealize.ShloMosaic.TcCoe Idealize.SL.Sem Cert.TernaryLinear

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the layer's output of the (shared) arguments: the kernel by its run, the reference by its
    run read stage by stage, the weight's finiteness taken from the precondition. -/
theorem algebraic : Cert.algebraic_KernelIdeal_ReferenceIdeal := by
  intro m ρ m' ρ' hpre hagree
  refine ⟨fun c => linearOut (m ((c : Thread Cert.KernelIdeal.nD Cert.KernelIdeal.τ).loc Cert.KernelIdeal.main_arg0))
      (Cert.KernelIdeal.Entry.qw m c) (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v15_eq _ _ _).trans ?_
  exact Cert.ReferenceIdeal.RefValue.result_eq _ _ _
    (fun j => Cert.Pre_finite_inputs.Finite.weight_real _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
